-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S27x64x64 : Shape := ⟨3, ![27, 64, 64]⟩
abbrev S27x50000 : Shape := ⟨2, ![27, 50000]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S27x64x64 : S_.BroadcastsInDim S27x64x64 (![] : Fin 0 → Fin S27x64x64.rank)
  reducesTo_S27x64x64_S_d0_1_2 : S27x64x64.ReducesTo [0, 1, 2] S_

variable [Facts]

def fn {F : FTy → Type} [FloatOps F] (main_arg0 : FVec F S200000x64 .f32) (main_arg1 : FVec F S27x64x64 .f32) (main_arg2 : IVec S27x50000 32) (main_arg3 : IVec S27x50000 32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S27x64x64 .f32 := Host.absf main_arg1
  let main_cst_0 : FVec F S_ .f32 := constant S_ .f32 0x7F800000#32
  let main_v5 : FVec F S27x64x64 .f32 := broadcastInDim S27x64x64 ![] bcast_S_S27x64x64 main_cst_0
  let main_v6 : IVec S27x64x64 1 := cmpf .olt main_v4 main_v5
  let main_c_1 : IVec S_ 1 := constantI S_ 1 1#1
  let main_v7 : IVec S_ 1 := (fun x v => Host.reduce IntOp.andi x v reducesTo_S27x64x64_S_d0_1_2 h_S_) main_v6 main_c_1
  let main_v8 : IVec S_ 1 := andi main_v3 main_v7
  main_v8
-- ==== Kernel.lean ====
abbrev S200000x64 : Shape := ⟨2, ![200000, 64]⟩
abbrev S27x64x64 : Shape := ⟨3, ![27, 64, 64]⟩
abbrev S27x50000 : Shape := ⟨2, ![27, 50000]⟩
abbrev S_ : Shape := ⟨0, ![]⟩
abbrev S27x50000x1 : Shape := ⟨3, ![27, 50000, 1]⟩
abbrev S27x50000x64 : Shape := ⟨3, ![27, 50000, 64]⟩
abbrev S1x10000x64 : Shape := ⟨3, ![1, 10000, 64]⟩
abbrev S1x64x64 : Shape := ⟨3, ![1, 64, 64]⟩
abbrev S10000x64 : Shape := ⟨2, ![10000, 64]⟩
abbrev S64x64 : Shape := ⟨2, ![64, 64]⟩

abbrev nBuf : Space → Nat
  | .hbm => 27
  | .vmem => 6
  | .smem => 0
  | _ => 0

abbrev bufTy : (tb : Table) → Fin (tcTables nBuf tb) → BufTy
  | .hbm, ⟨0, _⟩ => ⟨S200000x64, .f32⟩
  | .hbm, ⟨1, _⟩ => ⟨S27x64x64, .f32⟩
  | .hbm, ⟨2, _⟩ => ⟨S27x50000, .i32⟩
  | .hbm, ⟨3, _⟩ => ⟨S27x50000, .i32⟩
  | .hbm, ⟨4, _⟩ => ⟨S_, .i32⟩
  | .hbm, ⟨5, _⟩ => ⟨S27x50000, .i32⟩
  | .hbm, ⟨6, _⟩ => ⟨S27x50000, .i1⟩
  | .hbm, ⟨7, _⟩ => ⟨S_, .i32⟩
  | .hbm, ⟨8, _⟩ => ⟨S27x50000, .i32⟩
  | .hbm, ⟨9, _⟩ => ⟨S27x50000, .i32⟩
  | .hbm, ⟨10, _⟩ => ⟨S27x50000, .i32⟩
  | .hbm, ⟨11, _⟩ => ⟨S27x50000x1, .i32⟩
  | .hbm, ⟨12, _⟩ => ⟨S27x50000x64, .f32⟩
  | .hbm, ⟨13, _⟩ => ⟨S27x50000x64, .bf16⟩
  | .hbm, ⟨14, _⟩ => ⟨S27x64x64, .bf16⟩
  | .hbm, ⟨15, _⟩ => ⟨S27x50000x64, .f32⟩
  | .hbm, ⟨16, _⟩ => ⟨S_, .f32⟩
  | .hbm, ⟨17, _⟩ => ⟨S200000x64, .f32⟩
  | .hbm, ⟨18, _⟩ => ⟨S_, .i32⟩
  | .hbm, ⟨19, _⟩ => ⟨S27x50000, .i32⟩
  | .hbm, ⟨20, _⟩ => ⟨S27x50000, .i1⟩
  | .hbm, ⟨21, _⟩ => ⟨S_, .i32⟩
  | .hbm, ⟨22, _⟩ => ⟨S27x50000, .i32⟩
  | .hbm, ⟨23, _⟩ => ⟨S27x50000, .i32⟩
  | .hbm, ⟨24, _⟩ => ⟨S27x50000, .i32⟩
  | .hbm, ⟨25, _⟩ => ⟨S27x50000x1, .i32⟩
  | .hbm, ⟨26, _⟩ => ⟨S200000x64, .f32⟩
  | .local _ .vmem, ⟨0, _⟩ => ⟨S1x10000x64, .bf16⟩
  | .local _ .vmem, ⟨1, _⟩ => ⟨S1x10000x64, .bf16⟩
  | .local _ .vmem, ⟨2, _⟩ => ⟨S1x64x64, .bf16⟩
  | .local _ .vmem, ⟨3, _⟩ => ⟨S1x64x64, .bf16⟩
  | .local _ .vmem, ⟨4, _⟩ => ⟨S1x10000x64, .f32⟩
  | .local _ .vmem, ⟨5, _⟩ => ⟨S1x10000x64, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![27, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x10000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S27x50000 : S_.BroadcastsInDim S27x50000 (![] : Fin 0 → Fin S27x50000.rank)
  bcast_S27x50000_S27x50000x1_0_1 : S27x50000.BroadcastsInDim S27x50000x1 (![0, 1] : Fin 2 → Fin S27x50000x1.rank)
  bitsLt_bf16_f32 : FTy.bits .bf16 < FTy.bits .f32
  inb_S1x10000x64_S1x10000x64_0_0_0 : ∀ a, (![0, 0, 0] : Fin 3 → Nat) a + S1x10000x64.size a ≤ S1x10000x64.size a
  h_S1x10000x64 : 0 < S1x10000x64.numel
  shapeCasts_S1x10000x64_S10000x64 : S1x10000x64.ShapeCasts S10000x64
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S10000x64_S1x10000x64 : S10000x64.ShapeCasts S1x10000x64
  bcast_S_S200000x64 : S_.BroadcastsInDim S200000x64 (![] : Fin 0 → Fin S200000x64.rank)
  gather_S200000x64_S27x50000x1_S27x50000x64_2_0_n_n_0_2_164_wf : GatherDims.WF S200000x64 S27x50000x1 S27x50000x64 [2] [0] [] [0] [] 2 ![1, 64]
  dot_S10000x64_S64x64_S10000x64_1_0_0_1_n_n_wf : DotDims.WF S10000x64 S64x64 S10000x64 [1] [0] [0] [1] [] []
  scatter_S200000x64_S27x50000x1_S27x50000x64_2_0_0_2_wf : ScatterDims.WF S200000x64 S27x50000x1 S27x50000x64 [2] [0] [0] 2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x10000x64.size a ≤ S27x50000x64.size a
  hwx0_0 : ∀ i : grid0.Coords, EltTy.bits .bf16 = 32 ∨ (Rect.block (s := S27x50000x64) S1x10000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64.size a ≤ S27x64x64.size a
  hwx0_1 : ∀ i : grid0.Coords, EltTy.bits .bf16 = 32 ∨ (Rect.block (s := S27x64x64) S1x64x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x10000x64.size a ≤ S27x50000x64.size a
  hwx0_2 : ∀ i : grid0.Coords, EltTy.bits .f32 = 32 ∨ (Rect.block (s := S27x50000x64) S1x10000x64.size (cc0_transform_2 i) (hinb0_2 i)).WholeWords (EltTy.packing .f32)

variable [Facts₀]

def gather_S200000x64_S27x50000x1_S27x50000x64_2_0_n_n_0_2_164 : GatherDims S200000x64 S27x50000x1 S27x50000x64 where
  offsetDims := [2]
  collapsedSliceDims := [0]
  operandBatchingDims := []
  startIndicesBatchingDims := []
  startIndexMap := [0]
  indexVectorDim := 2
  sliceSizes := ![1, 64]
  wf := gather_S200000x64_S27x50000x1_S27x50000x64_2_0_n_n_0_2_164_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S200000x64_S27x50000x1_S27x50000x64_2_0_0_2 : ScatterDims S200000x64 S27x50000x1 S27x50000x64 where
  updateWindowDims := [2]
  insertedWindowDims := [0]
  scatterDimsToOperandDims := [0]
  indexVectorDim := 2
  wf := scatter_S200000x64_S27x50000x1_S27x50000x64_2_0_0_2_wf

abbrev win0_0 : Pipeline.Window sig grid0 :=
  Pipeline.Window.ofSpec (Memref.whole main_v7) S1x10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S200000x64 : Shape := ⟨2, ![200000, 64]⟩
abbrev S27x64x64 : Shape := ⟨3, ![27, 64, 64]⟩
abbrev S27x50000 : Shape := ⟨2, ![27, 50000]⟩
abbrev S_ : Shape := ⟨0, ![]⟩
abbrev S27x50000x1 : Shape := ⟨3, ![27, 50000, 1]⟩
abbrev S27x50000x64 : Shape := ⟨3, ![27, 50000, 64]⟩

abbrev nBuf : Space → Nat
  | .hbm => 25
  | .vmem => 0
  | .smem => 0
  | _ => 0

abbrev bufTy : (tb : Table) → Fin (tcTables nBuf tb) → BufTy
  | .hbm, ⟨0, _⟩ => ⟨S200000x64, .f32⟩
  | .hbm, ⟨1, _⟩ => ⟨S27x64x64, .f32⟩
  | .hbm, ⟨2, _⟩ => ⟨S27x50000, .i32⟩
  | .hbm, ⟨3, _⟩ => ⟨S27x50000, .i32⟩
  | .hbm, ⟨4, _⟩ => ⟨S_, .i32⟩
  | .hbm, ⟨5, _⟩ => ⟨S27x50000, .i32⟩
  | .hbm, ⟨6, _⟩ => ⟨S27x50000, .i1⟩
  | .hbm, ⟨7, _⟩ => ⟨S_, .i32⟩
  | .hbm, ⟨8, _⟩ => ⟨S27x50000, .i32⟩
  | .hbm, ⟨9, _⟩ => ⟨S27x50000, .i32⟩
  | .hbm, ⟨10, _⟩ => ⟨S27x50000, .i32⟩
  | .hbm, ⟨11, _⟩ => ⟨S27x50000x1, .i32⟩
  | .hbm, ⟨12, _⟩ => ⟨S27x50000x64, .f32⟩
  | .hbm, ⟨13, _⟩ => ⟨S27x50000x64, .f32⟩
  | .hbm, ⟨14, _⟩ => ⟨S_, .f32⟩
  | .hbm, ⟨15, _⟩ => ⟨S200000x64, .f32⟩
  | .hbm, ⟨16, _⟩ => ⟨S_, .i32⟩
  | .hbm, ⟨17, _⟩ => ⟨S27x50000, .i32⟩
  | .hbm, ⟨18, _⟩ => ⟨S27x50000, .i1⟩
  | .hbm, ⟨19, _⟩ => ⟨S_, .i32⟩
  | .hbm, ⟨20, _⟩ => ⟨S27x50000, .i32⟩
  | .hbm, ⟨21, _⟩ => ⟨S27x50000, .i32⟩
  | .hbm, ⟨22, _⟩ => ⟨S27x50000, .i32⟩
  | .hbm, ⟨23, _⟩ => ⟨S27x50000x1, .i32⟩
  | .hbm, ⟨24, _⟩ => ⟨S200000x64, .f32⟩
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]

class Facts₀ : Prop where
  bcast_S_S27x50000 : S_.BroadcastsInDim S27x50000 (![] : Fin 0 → Fin S27x50000.rank)
  bcast_S27x50000_S27x50000x1_0_1 : S27x50000.BroadcastsInDim S27x50000x1 (![0, 1] : Fin 2 → Fin S27x50000x1.rank)
  bcast_S_S200000x64 : S_.BroadcastsInDim S200000x64 (![] : Fin 0 → Fin S200000x64.rank)
  gather_S200000x64_S27x50000x1_S27x50000x64_2_0_n_n_0_2_164_wf : GatherDims.WF S200000x64 S27x50000x1 S27x50000x64 [2] [0] [] [0] [] 2 ![1, 64]
  dot_S27x50000x64_S27x64x64_S27x50000x64_2_1_1_2_0_0_wf : DotDims.WF S27x50000x64 S27x64x64 S27x50000x64 [2] [1] [1] [2] [0] [0]
  scatter_S200000x64_S27x50000x1_S27x50000x64_2_0_0_2_wf : ScatterDims.WF S200000x64 S27x50000x1 S27x50000x64 [2] [0] [0] 2

variable [Facts₀]

def gather_S200000x64_S27x50000x1_S27x50000x64_2_0_n_n_0_2_164 : GatherDims S200000x64 S27x50000x1 S27x50000x64 where
  offsetDims := [2]
  collapsedSliceDims := [0]
  operandBatchingDims := []
  startIndicesBatchingDims := []
  startIndexMap := [0]
  indexVectorDim := 2
  sliceSizes := ![1, 64]
  wf := gather_S200000x64_S27x50000x1_S27x50000x64_2_0_n_n_0_2_164_wf
def dot_S27x50000x64_S27x64x64_S27x50000x64_2_1_1_2_0_0 : DotDims S27x50000x64 S27x64x64 S27x50000x64 where
  lhsContracting := [2]
  rhsContracting := [1]
  lhsNonContracting := [1]
  rhsNonContracting := [2]
  lhsBatch := [0]
  rhsBatch := [0]
  wf := dot_S27x50000x64_S27x64x64_S27x50000x64_2_1_1_2_0_0_wf
def scatter_S200000x64_S27x50000x1_S27x50000x64_2_0_0_2 : ScatterDims S200000x64 S27x50000x1 S27x50000x64 where
  updateWindowDims := [2]
  insertedWindowDims := [0]
  scatterDimsToOperandDims := [0]
  indexVectorDim := 2
  wf := scatter_S200000x64_S27x50000x1_S27x50000x64_2_0_0_2_wf

class Facts : Prop extends Facts₀ where

variable [Facts]
-- ==== Proof.Spec.lean ====
/-
  The mathematics of a sparse 3-D convolution written as gather, per-offset product, scatter-add.

  For each of the 27 kernel offsets `k` a rulebook lists 50000 pairs (input row, output row).  The value computed is

    out[n, o] = Σ over the pairs (k, p) whose output row is n of  Σ_c feats[in(k, p), c] · weight[k, c, o].

  Three stages, each a function of whole arrays over literal shapes:
  * `wrapRow`: a negative row index `r` is read as `r + 200000` (one wrap by the number of rows);
  * `products`: the per-offset products, entry (k, p, o) the sum over the 64 input channels `c` of
    gathered[k, p, c] · weight[k, c, o];
  * `scatterSum`: every product row added into the output row its pair names, starting from zero.
  The gather and the scatter-add are the host's own operations and are never opened: both programs apply them
  to the same arguments, so only `products` is compared entry by entry.
-/
import Idealize.ShloMosaic.PureOps.Ideal
import Idealize.ShloMosaic.PureOps.Ideal.Laws
import Idealize.ShloMosaic.Lib.ValueIdx

noncomputable section

namespace Cert.SparseConv

open Idealize.ShloMosaic Idealize.ShloMosaic.ValueIdx

/-- The feature rows: 200000 active voxels, 64 channels. -/
abbrev Feats : Shape := ⟨2, ![200000, 64]⟩
/-- One 64 × 64 weight matrix per kernel offset. -/
abbrev Weights : Shape := ⟨3, ![27, 64, 64]⟩
/-- The rulebook: 27 offsets, 50000 pairs each. -/
abbrev Pairs : Shape := ⟨2, ![27, 50000]⟩
/-- The rulebook with a trailing unit axis, as the gather and the scatter take their indices. -/
abbrev PairsCol : Shape := ⟨3, ![27, 50000, 1]⟩
/-- One 64-channel row per pair. -/
abbrev Rows : Shape := ⟨3, ![27, 50000, 64]⟩
/-- The shape of a scalar. -/
abbrev Unit0 : Shape := ⟨0, ![]⟩

/-- A row index below zero counts from the end: `r` becomes `r + 200000`, any other index is kept. -/
def wrapRow (hb : Unit0.BroadcastsInDim Pairs (![] : Fin 0 → Fin Pairs.rank)) (x : IVec Pairs 32) : IVec Pairs 32 :=
  select (cmpi .slt x (broadcastInDim Pairs ![] hb (constantI Unit0 32 0#32)))
    (addi x (broadcastInDim Pairs ![] hb (constantI Unit0 32 200000#32))) x

/-- The wrapped rulebook column as an index array with a trailing unit axis. -/
def rowIndex (hb : Unit0.BroadcastsInDim Pairs (![] : Fin 0 → Fin Pairs.rank))
    (hc : Pairs.BroadcastsInDim PairsCol (![0, 1] : Fin 2 → Fin PairsCol.rank)) (x : IVec Pairs 32) : IVec PairsCol 32 :=
  broadcastInDim PairsCol ![0, 1] hc (wrapRow hb x)

/-- The gathered input rows: for pair (k, p) the feature row its input index names. -/
def gatheredRows (gd : GatherDims Feats PairsCol Rows) (hb : Unit0.BroadcastsInDim Pairs (![] : Fin 0 → Fin Pairs.rank))
    (hc : Pairs.BroadcastsInDim PairsCol (![0, 1] : Fin 2 → Fin PairsCol.rank))
    (feats : Feats.Idx → EReal) (inMap : IVec Pairs 32) : Rows.Idx → EReal :=
  Host.gather gd feats (rowIndex hb hc inMap)

/-- The per-offset products: entry (k, p, o) is Σ_c g[k, p, c] · w[k, c, o]. -/
def products (g : Rows.Idx → EReal) (w : Weights.Idx → EReal) : Rows.Idx → EReal :=
  fun i => ∑ c : Fin 64, g (ix3 (n0 := 27) (n1 := 50000) (n2 := 64) (i 0) (i 1) c) * w (ix3 (n0 := 27) (n1 := 64) (n2 := 64) (i 0) c (i 2))

/-- The product rows added into the output rows their pairs name, from zero. -/
def scatterSum (sd : ScatterDims Feats PairsCol Rows) (hz : Unit0.BroadcastsInDim Feats (![] : Fin 0 → Fin Feats.rank))
    (hb : Unit0.BroadcastsInDim Pairs (![] : Fin 0 → Fin Pairs.rank))
    (hc : Pairs.BroadcastsInDim PairsCol (![0, 1] : Fin 2 → Fin PairsCol.rank))
    (outMap : IVec Pairs 32) (p : Rows.Idx → EReal) : Feats.Idx → EReal :=
  Host.scatterAdd (F := Ideal) (φ := .f32) sd (broadcastInDim Feats ![] hz (constant (F := Ideal) Unit0 .f32 0x00000000#32))
    (rowIndex hb hc outMap) p

/-- `products` at named coordinates. -/
theorem products_apply (g : Rows.Idx → EReal) (w : Weights.Idx → EReal) (k : Fin 27) (p : Fin 50000) (o : Fin 64) :
    products g w (ix3 k p o) = ∑ c : Fin 64, g (ix3 k p c) * w (ix3 k c o) := rfl

end Cert.SparseConv

end
-- ==== Proof.BlockProduct.lean ====
/-
  One grid point's matrix product, entry by entry.

  At a grid point the body loads a [1, 10000, 64] block `g` of gathered rows and a [1, 64, 64] block `w` holding one
  offset's weight matrix, drops the leading unit axis of each, multiplies the 10000 × 64 matrix by the 64 × 64 matrix
  into a zero accumulator, and stores the result with the unit axis put back.  Over the extended reals the
  accumulator contributes nothing and entry (r, o) of the product is Σ_c g[0, r, c] · w[0, c, o].

  When the two blocks are blocks of whole arrays — rows b·10000 … b·10000 + 9999 of offset k of the gathered rows, and
  offset k's weight matrix — that sum is entry (k, b·10000 + r, o) of the per-offset products of the whole arrays.
-/
import proofs.«156032_j43817256354329_1_alg».proof.Proof.Gen.KernelIdeal.Skeleton
import proofs.«156032_j43817256354329_1_alg».proof.Proof.Spec
import Idealize.ShloMosaic.Lib.Pipeline.Value
import Idealize.ShloMosaic.Lib.ValueIdx
import Idealize.ShloMosaic.PureOps.Ideal.Laws

noncomputable section

namespace Cert.KernelIdeal.BlockProduct

open Idealize.ShloMosaic Idealize.ShloMosaic.ValueIdx Cert.KernelIdeal Cert.KernelIdeal.Gen Cert.SparseConv

/-- The block's matrix product: the left operand's second axis is contracted with the right operand's first. -/
abbrev blockDot : DotDims S10000x64 S64x64 S10000x64 := dot_S10000x64_S64x64_S10000x64_1_0_0_1_n_n

/-- The left operand is read at the output's row … -/
theorem lhs_row (j : S10000x64.Idx) (q : blockDot.contr.Idx) : (blockDot.lhsIdx j q 0).val = (j 0).val := by
  unfold DotDims.lhsIdx
  rw [dif_neg (show ¬(0 : Fin S10000x64.rank) ∈ blockDot.lhsBatch by decide),
    dif_pos (show (0 : Fin S10000x64.rank) ∈ blockDot.lhsNonContracting by decide)]
  rfl
/-- … and the contracted channel; -/
theorem lhs_chan (j : S10000x64.Idx) (q : blockDot.contr.Idx) : (blockDot.lhsIdx j q 1).val = (q ⟨0, by decide⟩).val :=
  blockDot.lhsIdx_val_of_single rfl j q
/-- the right operand at the contracted channel … -/
theorem rhs_chan (j : S10000x64.Idx) (q : blockDot.contr.Idx) : (blockDot.rhsIdx j q 0).val = (q ⟨0, by decide⟩).val :=
  blockDot.rhsIdx_val_of_single rfl j q
/-- … and the output's column. -/
theorem rhs_col (j : S10000x64.Idx) (q : blockDot.contr.Idx) : (blockDot.rhsIdx j q 1).val = (j 1).val := by
  unfold DotDims.rhsIdx
  rw [dif_neg (show ¬(1 : Fin S64x64.rank) ∈ blockDot.rhsBatch by decide),
    dif_pos (show (1 : Fin S64x64.rank) ∈ blockDot.rhsNonContracting by decide)]
  rfl

/-- What the body stores, at entry (z, r, o): Σ_c g[0, r, c] · w[0, c, o].  The two unit-axis casts read through to
    the matrices, the product into the zero accumulator is the plain sum over the contraction index, and that index is
    the channel. -/
theorem stored_apply (x0 : Vec Ideal S1x10000x64 .bf16) (x1 : Vec Ideal S1x64x64 .bf16) (z : Fin 1) (r : Fin 10000) (o : Fin 64) :
    k0_pay1 (F := Ideal) x0 x1 (ix3 z r o) = ∑ c : Fin 64, x0 (ix3 0 r c) * x1 (ix3 0 c o) := by
  unfold k0_pay1
  refine (shapeCast_addUnit_apply ![10000, 64] _ _ (ix3 z r o)).trans ?_
  simp only [matmul]
  refine (Ideal.matmul_constant_zero_apply blockDot none _ _ _).trans ?_
  rw [← Equiv.sum_comp (contrEquiv1 blockDot 64 rfl rfl).symm]
  refine Finset.sum_congr rfl fun c _ => ?_
  have hc := contrEquiv1_symm_val blockDot 64 rfl rfl c
  have el : shapeCast S10000x64 x0 shapeCasts_S1x10000x64_S10000x64
      (blockDot.lhsIdx (fun a => ix3 z r o a.succ) ((contrEquiv1 blockDot 64 rfl rfl).symm c)) = x0 (ix3 0 r c) := by
    refine (shapeCast_dropUnit_apply ![10000, 64] x0 _ _).trans (congrArg x0 ?_)
    funext a; apply Fin.ext
    match a with
    | ⟨0, _⟩ => rfl
    | ⟨1, _⟩ => exact lhs_row (fun a => ix3 z r o a.succ) ((contrEquiv1 blockDot 64 rfl rfl).symm c)
    | ⟨2, _⟩ => exact (lhs_chan (fun a => ix3 z r o a.succ) ((contrEquiv1 blockDot 64 rfl rfl).symm c)).trans hc
  have er : shapeCast S64x64 x1 shapeCasts_S1x64x64_S64x64
      (blockDot.rhsIdx (fun a => ix3 z r o a.succ) ((contrEquiv1 blockDot 64 rfl rfl).symm c)) = x1 (ix3 0 c o) := by
    refine (shapeCast_dropUnit_apply ![64, 64] x1 _ _).trans (congrArg x1 ?_)
    funext a; apply Fin.ext
    match a with
    | ⟨0, _⟩ => rfl
    | ⟨1, _⟩ => exact (rhs_chan (fun a => ix3 z r o a.succ) ((contrEquiv1 blockDot 64 rfl rfl).symm c)).trans hc
    | ⟨2, _⟩ => exact rhs_col (fun a => ix3 z r o a.succ) ((contrEquiv1 blockDot 64 rfl rfl).symm c)
  rw [el, er]

/-- A block of the products.  Let the left block be the array `A` read through `e0` and the right block the array `W`
    read through `e1`, where `e0` and the output's placement `e2` put block entry (z, r, c) at (k, b·10000 + r, c) and `e1`
    puts (z, c, o) at (k, c, o).  Then what the body stores at `j` is the whole arrays' product at `e2 j`. -/
theorem stored_eq_products (A : Rows.Idx → EReal) (W : Weights.Idx → EReal)
    (x0 : Vec Ideal S1x10000x64 .bf16) (x1 : Vec Ideal S1x64x64 .bf16)
    (e0 e2 : S1x10000x64.Idx → Rows.Idx) (e1 : S1x64x64.Idx → Weights.Idx) (k b : Nat)
    (hx0 : ∀ y, x0 y = A (e0 y)) (hx1 : ∀ y, x1 y = W (e1 y))
    (h0 : ∀ y : S1x10000x64.Idx, (e0 y 0).val = k ∧ (e0 y 1).val = b * 10000 + (y 1).val ∧ (e0 y 2).val = (y 2).val)
    (h1 : ∀ y : S1x64x64.Idx, (e1 y 0).val = k ∧ (e1 y 1).val = (y 1).val ∧ (e1 y 2).val = (y 2).val)
    (h2 : ∀ y : S1x10000x64.Idx, (e2 y 0).val = k ∧ (e2 y 1).val = b * 10000 + (y 1).val ∧ (e2 y 2).val = (y 2).val)
    (j : S1x10000x64.Idx) :
    k0_pay1 (F := Ideal) x0 x1 j = products A W (e2 j) := by
  refine ((congrArg (k0_pay1 (F := Ideal) x0 x1) (eq_ix3 j)).trans (stored_apply x0 x1 (j 0) (j 1) (j 2))).trans ?_
  show _ = ∑ c : Fin 64, A (ix3 (n0 := 27) (n1 := 50000) (n2 := 64) (e2 j 0) (e2 j 1) c)
    * W (ix3 (n0 := 27) (n1 := 64) (n2 := 64) (e2 j 0) c (e2 j 2))
  refine Finset.sum_congr rfl fun c _ => ?_
  have a0 : (e0 (ix3 0 (j 1) c) 0).val = k := (h0 _).1
  have a1 : (e0 (ix3 0 (j 1) c) 1).val = b * 10000 + (j 1).val := (h0 _).2.1
  have a2 : (e0 (ix3 0 (j 1) c) 2).val = c.val := (h0 _).2.2
  have b0 : (e1 (ix3 0 c (j 2)) 0).val = k := (h1 _).1
  have b1 : (e1 (ix3 0 c (j 2)) 1).val = c.val := (h1 _).2.1
  have b2 : (e1 (ix3 0 c (j 2)) 2).val = (j 2).val := (h1 _).2.2
  obtain ⟨c0, c1, c2⟩ := h2 j
  rw [hx0, hx1]
  congr 1
  · refine congrArg A (funext fun a => Fin.ext ?_)
    match a with
    | ⟨0, _⟩ => exact a0.trans c0.symm
    | ⟨1, _⟩ => exact a1.trans c1.symm
    | ⟨2, _⟩ => exact a2
  · refine congrArg W (funext fun a => Fin.ext ?_)
    match a with
    | ⟨0, _⟩ => exact b0.trans c0.symm
    | ⟨1, _⟩ => exact b1
    | ⟨2, _⟩ => exact b2.trans c2.symm

end Cert.KernelIdeal.BlockProduct

end
-- ==== Proof.KernelStages.lean ====
/-
  The kernel program's result as the three stages of the specification.

  The program gathers the input rows on the host (the wrapped input indices, then a change of float format that is the
  identity over the extended reals), runs the per-offset product on a 27 × 5 grid, and scatter-adds the product rows on
  the host.  Grid point t = (k, b) reads rows b·10000 … b·10000 + 9999 of offset k of the gathered rows and offset k's
  whole weight matrix, and writes rows b·10000 … b·10000 + 9999 of offset k of the product array.  Those output blocks
  tile the product array (27 offsets × 5 row blocks), and each is the matching block of one whole-array function, the
  per-offset products of the gathered rows and the weights; so after the last point the array holds exactly that function.
-/
import proofs.«156032_j43817256354329_1_alg».proof.Proof.Gen.KernelIdeal.Frame
import proofs.«156032_j43817256354329_1_alg».proof.Proof.BlockProduct
import proofs.«156032_j43817256354329_1_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Stages

open Idealize.ShloMosaic Idealize.ShloMosaic.TcCoe Idealize.ShloMosaic.ValueIdx Idealize.SL.Sem
open Idealize.ShloMosaic.Pipeline (Dat)
open Cert.KernelIdeal Cert.KernelIdeal.Gen Cert.SparseConv

variable (m : (ℓ : Loc nD τ sig) → Buf (Elt Ideal) ℓ) (ρ : Dev nD → PrngReg)

theorem zero_offsets : (![0, 0, 0] : Fin 3 → Nat) = fun _ => 0 := funext fun a => by fin_cases a <;> rfl

/-- Where each point's blocks sit: the row block of the gathered rows is the output's (same offset, same row block, all
    channels), the weight block is the output's offset's whole matrix, and the output block spans all output channels. -/
theorem block_places : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = 0
    ∧ win0_1.index t (2 : Fin 3) = 0
    ∧ win0_2.index t (2 : Fin 3) = 0 :=
  (by decide +kernel : ∀ t : Fin grid0.N, _)

/-- Every (offset, row block) is some point's output block. -/
theorem block_onto : ∀ (k : Fin 27) (b : Fin 5), ∃ t : Fin cfg0.N, win0_2.index t = ![k.val, b.val, 0] :=
  (by decide +kernel : ∀ (k : Fin 27) (b : Fin 5), ∃ t : Fin grid0.N, win0_2.index t = ![k.val, b.val, 0])

/-- The product array of the whole gathered rows and weights, as the region finds them. -/
abbrev regionProducts (c : Dev nD) : S27x50000x64.Idx → EReal := products (V m c main_v7) (V m c main_v8)

/-- What point `t` writes back is block `t` of the whole-array products. -/
theorem flushed_eq (c : Dev nD) (t : Fin cfg0.N) :
    (dats m 0 c).flushed 2 t = ((cfg0.win 2).blk t).view.read (Elt Ideal) (regionProducts m c) := by
  show (cfg0.win 2).cut (grid0.coords t) ((dats m 0 c).after 2 t) = _
  rw [after0_2]
  unfold out0_2
  rw [View.canon_unit_zero zero_offsets]
  simp only [View.ld_unit_zero (S := S1x10000x64) zero_offsets, View.ld_unit_zero (S := S1x64x64) zero_offsets]
  obtain ⟨e0, e1, e2, e3, e4, e5, e6⟩ := block_places t
  funext j
  show k0_pay1 (iblk m c 0 t) (iblk m c 1 t) j = regionProducts m c (((cfg0.win 2).blk t).view.emb j)
  refine BlockProduct.stored_eq_products (V m c main_v7) (V m c main_v8) (iblk m c 0 t) (iblk m c 1 t)
    (((cfg0.win 0).blk t).view.emb) (((cfg0.win 2).blk t).view.emb) (((cfg0.win 1).blk t).view.emb)
    (win0_2.index t (0 : Fin 3)) (win0_2.index t (1 : Fin 3)) (fun y => rfl) (fun y => rfl) (fun y => ?_) (fun y => ?_) (fun y => ?_) j
  · have h0 : (y 0).val < 1 := (y 0).isLt
    refine ⟨?_, ?_, ?_⟩
    · show win0_0.index t (0 : Fin 3) * 1 + 1 * (y 0).val = _; omega
    · show win0_0.index t (1 : Fin 3) * 10000 + 1 * (y 1).val = _; omega
    · show win0_0.index t (2 : Fin 3) * 64 + 1 * (y 2).val = _; omega
  · have h0 : (y 0).val < 1 := (y 0).isLt
    refine ⟨?_, ?_, ?_⟩
    · show win0_1.index t (0 : Fin 3) * 1 + 1 * (y 0).val = _; omega
    · show win0_1.index t (1 : Fin 3) * 64 + 1 * (y 1).val = _; omega
    · show win0_1.index t (2 : Fin 3) * 64 + 1 * (y 2).val = _; omega
  · have h0 : (y 0).val < 1 := (y 0).isLt
    refine ⟨?_, ?_, ?_⟩
    · show win0_2.index t (0 : Fin 3) * 1 + 1 * (y 0).val = _; omega
    · show win0_2.index t (1 : Fin 3) * 10000 + 1 * (y 1).val = _; omega
    · show win0_2.index t (2 : Fin 3) * 64 + 1 * (y 2).val = _; omega

/-- An entry of the product array is in point `t`'s block iff each coordinate is in the block's range on its axis. -/
theorem mem_block (t : Fin cfg0.N) (i : S27x50000x64.Idx) :
    i ∈ ((cfg0.win 2).blk t).view.set ↔ ∀ a : Fin 3, win0_2.index t a * S1x10000x64.size a ≤ (i a).val
      ∧ (i a).val < win0_2.index t a * S1x10000x64.size a + S1x10000x64.size a := by
  show i ∈ ((View.whole main_v9).slice (win0_2.rect t)).set ↔ _
  rw [View.set_slice_whole, Rect.mem_set_unit]
  exact Iff.rfl

/-- The output blocks tile the product array: entry (k, p, o) is in the block of the point at (k, p / 10000). -/
theorem covered (i : S27x50000x64.Idx) :
    ∃ t : Fin cfg0.N, (cfg0.win 2).flush t = true ∧ i ∈ ((cfg0.win 2).blk t).view.set := by
  have hi0 : (i 0).val < 27 := (i 0).isLt
  have hi1 : (i 1).val < 50000 := (i 1).isLt
  have hi2 : (i 2).val < 64 := (i 2).isLt
  obtain ⟨t, ht⟩ := block_onto ⟨(i 0).val, hi0⟩ ⟨(i 1).val / 10000, by omega⟩
  have q0 : win0_2.index t (0 : Fin 3) = (i 0).val := congrFun ht 0
  have q1 : win0_2.index t (1 : Fin 3) = (i 1).val / 10000 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 10000 ≤ (i 1).val ∧ (i 1).val < win0_2.index t (1 : Fin 3) * 10000 + 10000; omega
  | ⟨2, _⟩ => show win0_2.index t (2 : Fin 3) * 64 ≤ (i 2).val ∧ (i 2).val < win0_2.index t (2 : Fin 3) * 64 + 64; omega

/-- After the last point the product array holds the whole-array products. -/
theorem region_result (c : Dev nD) : (dats m 0 c).arrAt 2 cfg0.N = regionProducts m c :=
  (dats m 0 c).arrAt_eq_of_cover 2 (regionProducts m c) (fun t _ => flushed_eq m c t) covered

/-- The rows the program gathers, from the arguments. -/
abbrev rows (c : Dev nD) : S27x50000x64.Idx → EReal :=
  gatheredRows gather_S200000x64_S27x50000x1_S27x50000x64_2_0_n_n_0_2_164 bcast_S_S27x50000 bcast_S27x50000_S27x50000x1_0_1
    (m ((c.tc : Thread nD τ).loc main_arg0)) (m ((c.tc : Thread nD τ).loc main_arg2))

/-- The region finds the gathered rows in its first array: the host lines before it gather them, and the change of float
    format is the identity. -/
theorem entry_rows (c : Dev nD) : (V m c main_v7 : S27x50000x64.Idx → EReal) = rows m c := by
  show StableHlo.after hostOps0 (fun b => m (c, b)) (Proc.devRef .tc main_v7) = _
  after_results
  rfl

/-- And the weights, format changed, in its second. -/
theorem entry_weights (c : Dev nD) : (V m c main_v8 : S27x64x64.Idx → EReal) = m ((c.tc : Thread nD τ).loc main_arg1) := by
  show StableHlo.after hostOps0 (fun b => m (c, b)) (Proc.devRef .tc main_v8) = _
  after_results
  rfl

/-- The product array after the region, from the arguments. -/
theorem region_products (c : Dev nD) :
    (dats m 0 c).arrAt 2 cfg0.N = products (rows m c) (m ((c.tc : Thread nD τ).loc main_arg1)) :=
  (region_result m c).trans (congrArg₂ products (entry_rows m c) (entry_weights m c))

/-- The program's result: the host lines after the region scatter-add the product array, read where the region left it,
    by the wrapped output indices, read from an argument no line has written. -/
theorem result_eq (c : Dev nD) :
    Pipeline.afterTail₀ cfgs (dats m) 0 (V0 m) [hostOps1] c main_v17
      = scatterSum scatter_S200000x64_S27x50000x1_S27x50000x64_2_0_0_2 bcast_S_S200000x64 bcast_S_S27x50000 bcast_S27x50000_S27x50000x1_0_1
          (m ((c.tc : Thread nD τ).loc main_arg3)) (products (rows m c) (m ((c.tc : Thread nD τ).loc main_arg1))) := by
  unfold Pipeline.afterTail₀
  show StableHlo.after hostOps1 _ (Proc.devRef .tc main_v17) = _
  after_results
  have h3 : (Pipeline.withArrays (cfgs 0).spec c (V0 m c) (fun w => (dats m 0 c).arrAt w (cfgs 0).N) (Proc.devRef .tc main_arg3) : IVec S27x50000 32)
      = m ((c.tc : Thread nD τ).loc main_arg3) :=
    (Pipeline.withArrays_of_ne _ c (V0 m c) _ main_arg3 (by exact (by decide : ∀ w, Pipeline.arrRef spec0 w ≠ main_arg3))).trans (V_main_arg3 m c)
  have h9 : (Pipeline.withArrays (cfgs 0).spec c (V0 m c) (fun w => (dats m 0 c).arrAt w (cfgs 0).N) (Proc.devRef .tc main_v9) : S27x50000x64.Idx → EReal)
      = products (rows m c) (m ((c.tc : Thread nD τ).loc main_arg1)) :=
    (Pipeline.withArrays_arr spec0 launch0.win.arr_inj c _ _ 2).trans (region_products m c)
  exact congrArg₂ (scatterSum scatter_S200000x64_S27x50000x1_S27x50000x64_2_0_0_2 bcast_S_S200000x64 bcast_S_S27x50000 bcast_S27x50000_S27x50000x1_0_1) h3 h9

/-- Every weakly fair execution of the program terminates with its result at the scattered sum of the per-offset products
    of the gathered rows, and its arguments as they were. -/
theorem run : θ_run defs (onTc (τ := τ) (main (F := Ideal))) ⟨m, fun _ => 0, ρ⟩ (fun r => ∀ c : Dev nD,
      r.2.mem ((c.tc : Thread nD τ).loc main_v17)
        = scatterSum scatter_S200000x64_S27x50000x1_S27x50000x64_2_0_0_2 bcast_S_S200000x64 bcast_S_S27x50000 bcast_S27x50000_S27x50000x1_0_1
            (m ((c.tc : Thread nD τ).loc main_arg3)) (products (rows m c) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨((h c).2 main_v17 (Pipeline.mem_restRefs_of main_v17 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c)⟩)
    (run_main m ρ)

end Cert.KernelIdeal.Stages

end
-- ==== Proof.RefStages.lean ====
/-
  The reference program's result as the three stages of the specification.

  The reference gathers the input rows with the wrapped input indices, multiplies each offset's rows by that
  offset's weight matrix in one batched contraction over the 64 input channels, and adds the product rows into the
  output rows named by the wrapped output indices.  Entry (k, p, o) of the batched contraction is
  Σ_c gathered[k, p, c] · weight[k, c, o]: the batch axis k is kept on both operands, the pair p comes from the
  left operand, the output channel o from the right, and c runs over the contracted axis.
-/
import proofs.«156032_j43817256354329_1_alg».proof.Proof.Gen.ReferenceIdeal.Read
import proofs.«156032_j43817256354329_1_alg».proof.Proof.Spec

noncomputable section

namespace Cert.ReferenceIdeal.Stages

open Idealize.ShloMosaic Idealize.ShloMosaic.ValueIdx Cert.ReferenceIdeal Cert.ReferenceIdeal.Gen Cert.SparseConv

/-- The rows the reference gathers. -/
abbrev rows (x0 : S200000x64.Idx → EReal) (x2 : IVec S27x50000 32) : S27x50000x64.Idx → EReal :=
  gatheredRows gather_S200000x64_S27x50000x1_S27x50000x64_2_0_n_n_0_2_164 bcast_S_S27x50000 bcast_S27x50000_S27x50000x1_0_1 x0 x2

/-- The gather stage is the specification's gather of the wrapped input indices. -/
theorem gather_eq (x0 : S200000x64.Idx → EReal) (x2 : IVec S27x50000 32) :
    Read.val_main_v6 (F := Ideal) x0 x2 = rows x0 x2 := rfl

/-- The batched contraction, entry by entry, is the per-offset product of the gathered rows. -/
theorem products_eq (x0 : S200000x64.Idx → EReal) (x1 : S27x64x64.Idx → EReal) (x2 : IVec S27x50000 32) :
    Read.val_main_v7 (F := Ideal) x0 x1 x2 = products (rows x0 x2) x1 := by
  funext i
  rw [Read.val_main_v7_apply, gather_eq]
  refine Finset.sum_congr rfl fun c _ => ?_
  have el : Read.lidx_main_v7 i c = ix3 (n0 := 27) (n1 := 50000) (n2 := 64) (i 0) (i 1) c :=
    funext fun a => Fin.ext (by match a with | ⟨0, _⟩ => rfl | ⟨1, _⟩ => rfl | ⟨2, _⟩ => rfl)
  have er : Read.ridx_main_v7 i c = ix3 (n0 := 27) (n1 := 64) (n2 := 64) (i 0) c (i 2) :=
    funext fun a => Fin.ext (by match a with | ⟨0, _⟩ => rfl | ⟨1, _⟩ => rfl | ⟨2, _⟩ => rfl)
  rw [el, er]

/-- The reference's result: the product rows scattered and summed. -/
theorem result_eq (x0 : S200000x64.Idx → EReal) (x1 : S27x64x64.Idx → EReal) (x2 x3 : IVec S27x50000 32) :
    Read.val_main_v15 (F := Ideal) x0 x1 x2 x3
      = scatterSum scatter_S200000x64_S27x50000x1_S27x50000x64_2_0_0_2 bcast_S_S200000x64 bcast_S_S27x50000
          bcast_S27x50000_S27x50000x1_0_1 x3 (products (rows x0 x2) x1) := by
  rw [← products_eq]
  rfl

end Cert.ReferenceIdeal.Stages

end
-- ==== Proof.lean ====
/-
  The claim: the sparse-convolution kernel program and its reference agree over the extended reals.

  Both programs compute, from the feature rows, the 27 weight matrices and the rulebook of (input row, output row) pairs,

      out = scatter-add over the pairs of  ( Σ_c feats[in(k, p), c] · weight[k, c, o] )  into row out(k, p),

  a negative row index counting from the end.  They differ only in how the per-offset products are formed: the kernel
  program changes the float format of the operands (the identity over the extended reals) and multiplies 10000-row
  blocks on a 27 × 5 grid, each into a zero accumulator; the reference forms all products in one batched contraction.
  Entry by entry both are the same finite sum of the same products, so no law beyond the meaning of the two
  contractions is used and the inputs' finiteness is never needed.  The gather before and the scatter-add after are the
  same host operations applied to equal arguments and are carried unopened.

  The word-level kernel program and its idealization were printed from one text with no rewrite, so the idealization
  claim is trivial; the three programs' termination and unchanged arguments are their runs'.
-/
import proofs.«156032_j43817256354329_1_alg».proof.Defs
import proofs.«156032_j43817256354329_1_alg».proof.Proof.Gen.Kernel
import proofs.«156032_j43817256354329_1_alg».proof.Proof.Gen.Kernel.Skeleton
import proofs.«156032_j43817256354329_1_alg».proof.Proof.Gen.Kernel.Launch
import proofs.«156032_j43817256354329_1_alg».proof.Proof.Gen.Kernel.Points
import proofs.«156032_j43817256354329_1_alg».proof.Proof.Gen.Kernel.Frame
import proofs.«156032_j43817256354329_1_alg».proof.Proof.Gen.KernelIdeal
import proofs.«156032_j43817256354329_1_alg».proof.Proof.Gen.KernelIdeal.Skeleton
import proofs.«156032_j43817256354329_1_alg».proof.Proof.Gen.KernelIdeal.Launch
import proofs.«156032_j43817256354329_1_alg».proof.Proof.Gen.KernelIdeal.Points
import proofs.«156032_j43817256354329_1_alg».proof.Proof.Gen.KernelIdeal.Frame
import proofs.«156032_j43817256354329_1_alg».proof.Proof.Gen.ReferenceIdeal
import proofs.«156032_j43817256354329_1_alg».proof.Proof.Gen.Pre_finite_inputs
import proofs.«156032_j43817256354329_1_alg».proof.Proof.Gen.ReferenceIdeal.Run
import proofs.«156032_j43817256354329_1_alg».proof.Proof.Gen.ReferenceIdeal.Read
import proofs.«156032_j43817256354329_1_alg».proof.Proof.KernelStages
import proofs.«156032_j43817256354329_1_alg».proof.Proof.RefStages
import Idealize.ShloMosaic.Adequacy
import Idealize.ShloMosaic.Init

noncomputable section

namespace Cert.Proof

open Idealize.ShloMosaic Idealize.ShloMosaic.TcCoe Idealize.SL.Sem Cert.SparseConv

/-- The two programs gather with the same dimension numbers … -/
theorem gatherDims_eq : Cert.ReferenceIdeal.gather_S200000x64_S27x50000x1_S27x50000x64_2_0_n_n_0_2_164 = Cert.KernelIdeal.gather_S200000x64_S27x50000x1_S27x50000x64_2_0_n_n_0_2_164 := rfl
/-- … and scatter with the same dimension numbers. -/
theorem scatterDims_eq : Cert.ReferenceIdeal.scatter_S200000x64_S27x50000x1_S27x50000x64_2_0_0_2 = Cert.KernelIdeal.scatter_S200000x64_S27x50000x1_S27x50000x64_2_0_0_2 := rfl

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end at one value: the scattered sum of the per-offset
    products of the gathered rows. -/
theorem algebraic : Cert.algebraic_KernelIdeal_ReferenceIdeal := by
  intro m ρ m' ρ' _ hagree
  refine ⟨_, Cert.KernelIdeal.Stages.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.Stages.result_eq,
    (hagree c).1, (hagree c).2.1, (hagree c).2.2.1, (hagree c).2.2.2]
  unfold Cert.ReferenceIdeal.Stages.rows Cert.KernelIdeal.Stages.rows
  rw [gatherDims_eq, scatterDims_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
